-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S8192x4096, .bf16⟩
  | .hbm, ⟨6, _⟩ => ⟨S1x4096, .f32⟩
  | .hbm, ⟨7, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Layer.lean ====
/-
  The binary dense layer as ONE function of its three argument arrays, over the extended reals.

  For an input matrix `x` (8192 rows of 4096 features), a weight matrix `w` (4096 × 4096) and a bias vector `b`
  (4096 entries), entry (r, n) of the layer's output is

      ∑ k, x (r, k) · sign (w (k, n))  +  b n,

  the sum ranging over the 4096 features. Both programs compute exactly this: the weights enter only through their
  signs, each output entry is one inner product of a row of `x` with a column of signs, and the bias of the column is
  added last. No algebraic law is needed to compare the two programs beyond reading each of them at an index, so
  nothing here depends on the entries being finite.
-/
import Idealize.ShloMosaic.PureOps.Ideal
import Idealize.ShloMosaic.Lib.ValueIdx

noncomputable section

open scoped BigOperators

namespace Cert.Layer

open Idealize.ShloMosaic Idealize.ShloMosaic.ValueIdx

/-- The shape of the input and of the output: 8192 rows, 4096 columns. -/
abbrev Rows : Shape := ⟨2, ![8192, 4096]⟩
/-- The shape of the weight matrix: 4096 features, 4096 units. -/
abbrev Weights : Shape := ⟨2, ![4096, 4096]⟩
/-- The shape of the bias: one entry per unit. -/
abbrev Units : Shape := ⟨1, ![4096]⟩

/-- Entry (r, n) of `x · sign w + b`: the inner product of row `r` of `x` with the signs of column `n` of `w`,
    plus entry `n` of `b`. -/
def dense (x : Rows.Idx → EReal) (w : Weights.Idx → EReal) (b : Units.Idx → EReal) : Rows.Idx → EReal :=
  fun i => (∑ k : Fin 4096, x (ix2 (i 0) k) * Ideal.sign (w (ix2 k (i 1)))) + b (ix1 (i 1))

/-- The same entry, at an index given by its row and its column. -/
theorem dense_apply (x : Rows.Idx → EReal) (w : Weights.Idx → EReal) (b : Units.Idx → EReal) (r : Fin 8192) (n : Fin 4096) :
    dense x w b (ix2 r n) = (∑ k : Fin 4096, x (ix2 r k) * Ideal.sign (w (ix2 k n))) + b (ix1 n) := rfl

end Cert.Layer

end
-- ==== Proof.Reference.lean ====
/-
  The reference computes the layer.

  The reference takes the signs of the weights, contracts the input with them over the feature axis, and adds the bias
  broadcast along the rows. Read at an output index `i` = (r, n), one operation at a time: the sum's second operand is
  the bias at column `n` (two broadcasts, each reading the column coordinate), the first is the contraction, a sum over
  the features `k` of the input at (r, k) times the sign of the weight at (k, n). That is `Cert.Layer.dense` at `i`.
-/
import proofs.«172454_j42167988912830_2_alg».proof.Proof.Gen.ReferenceIdeal.Read
import proofs.«172454_j42167988912830_2_alg».proof.Proof.Layer

noncomputable section

open scoped BigOperators

namespace Cert.ReferenceIdeal.Dense

open Cert.ReferenceIdeal Cert.ReferenceIdeal.Read Idealize.ShloMosaic Idealize.ShloMosaic.ValueIdx

/-- The left operand of the contraction at output index `i` and feature `k` is read at (row of `i`, `k`). -/
theorem lhs_index (i : S8192x4096.Idx) (k : Fin 4096) : lidx_main_v1 i k = ix2 (i 0) k :=
  funext fun a => Fin.ext (by match a with | ⟨0, _⟩ => rfl | ⟨1, _⟩ => rfl)

/-- The right operand is read at (`k`, column of `i`). -/
theorem rhs_index (i : S8192x4096.Idx) (k : Fin 4096) : ridx_main_v1 i k = ix2 k (i 1) :=
  funext fun a => Fin.ext (by match a with | ⟨0, _⟩ => rfl | ⟨1, _⟩ => rfl)

/-- The bias, broadcast to a row and then along the rows, is read at the column of `i`. -/
theorem bias_index (i : S8192x4096.Idx) : idx_main_v2 (idx_main_v3 i) = ix1 (i 1) :=
  funext fun a => Fin.ext (by match a with | ⟨0, _⟩ => rfl)

/-- THE REFERENCE'S RESULT, as a function of its three arguments, is the layer. -/
theorem result_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v4 (F := Ideal) x w b = Cert.Layer.dense x w b := by
  funext i
  rw [val_main_v4_apply, val_main_v1_apply, val_main_v3_apply, val_main_v2_apply]
  simp only [val_main_v0_apply, lhs_index, rhs_index, bias_index, Ideal.hostUnary_sign_def, Ideal.addf_def]
  rfl

end Cert.ReferenceIdeal.Dense

end
-- ==== Proof.Tile.lean ====
/-
  One tile of the kernel's output, entry by entry.

  At a grid point the kernel's body holds three blocks: 1024 rows of the input with all 4096 features (`a`), all 4096
  features of 512 columns of the binarised weights (`s`), and the 512 matching entries of the bias as a single row
  (`v`). It multiplies the first two into a zero accumulator and adds the bias row, repeated down the 1024 rows. Read
  at row `p` and column `q` of the tile, over the extended reals, the result is

      ∑ k, a (p, k) · s (k, q)  +  v (0, q):

  the matrix unit's product into a zero accumulator is the plain sum of products over the contracted axis (its
  contraction index has a single coordinate, the feature `k`), and a row broadcast down a tile reads the row's entry of
  the same column.
-/
import proofs.«172454_j42167988912830_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The left operand's index at output entry `j` and contraction index `κ` keeps `j`'s row … -/
theorem lhs_row (j : S1024x512.Idx) (κ : dot_S1024x4096_S4096x512_S1024x512_1_0_0_1_n_n.contr.Idx) :
    (dot_S1024x4096_S4096x512_S1024x512_1_0_0_1_n_n.lhsIdx j κ 0).val = (j 0).val := by
  unfold DotDims.lhsIdx
  rw [dif_neg (show ¬(0 : Fin S1024x4096.rank) ∈ dot_S1024x4096_S4096x512_S1024x512_1_0_0_1_n_n.lhsBatch by decide),
    dif_pos (show (0 : Fin S1024x4096.rank) ∈ dot_S1024x4096_S4096x512_S1024x512_1_0_0_1_n_n.lhsNonContracting by decide)]
  rfl

/-- … and the right operand's keeps `j`'s column. -/
theorem rhs_col (j : S1024x512.Idx) (κ : dot_S1024x4096_S4096x512_S1024x512_1_0_0_1_n_n.contr.Idx) :
    (dot_S1024x4096_S4096x512_S1024x512_1_0_0_1_n_n.rhsIdx j κ 1).val = (j 1).val := by
  unfold DotDims.rhsIdx
  rw [dif_neg (show ¬(1 : Fin S4096x512.rank) ∈ dot_S1024x4096_S4096x512_S1024x512_1_0_0_1_n_n.rhsBatch by decide),
    dif_pos (show (1 : Fin S4096x512.rank) ∈ dot_S1024x4096_S4096x512_S1024x512_1_0_0_1_n_n.rhsNonContracting by decide)]
  rfl

/-- THE TILE PRODUCT at (p, q): into a zero accumulator, the sum over the 4096 features of row `p` of the left block
    times column `q` of the right block. -/
theorem product_apply (a : FVec Ideal S1024x4096 .bf16) (s : FVec Ideal S4096x512 .bf16) (p : Fin 1024) (q : Fin 512) :
    matmul dot_S1024x4096_S4096x512_S1024x512_1_0_0_1_n_n none a s (constant (F := Ideal) S1024x512 .f32 0x00000000#32) (ix2 p q)
      = ∑ k : Fin 4096, a (ix2 p k) * s (ix2 k q) := by
  simp only [matmul]
  rw [Ideal.matmul_constant_zero_apply,
    ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 p q)
      ((contrEquiv1 dot_S1024x4096_S4096x512_S1024x512_1_0_0_1_n_n 4096 rfl rfl).symm k) = ix2 p k :=
    funext fun d => Fin.ext (by
      match d with
      | ⟨0, _⟩ => exact lhs_row _ _
      | ⟨1, _⟩ => exact (dot_S1024x4096_S4096x512_S1024x512_1_0_0_1_n_n.lhsIdx_val_of_single rfl _ _).trans hk)
  have er : dot_S1024x4096_S4096x512_S1024x512_1_0_0_1_n_n.rhsIdx (ix2 p q)
      ((contrEquiv1 dot_S1024x4096_S4096x512_S1024x512_1_0_0_1_n_n 4096 rfl rfl).symm k) = ix2 k q :=
    funext fun d => Fin.ext (by
      match d with
      | ⟨0, _⟩ => exact (dot_S1024x4096_S4096x512_S1024x512_1_0_0_1_n_n.rhsIdx_val_of_single rfl _ _).trans hk
      | ⟨1, _⟩ => exact rhs_col _ _)
  rw [el, er]

/-- THE BIAS ROW repeated down the tile reads, at (p, q), the row's entry of column `q`. -/
theorem bias_apply (v : FVec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun d => match d with
    | ⟨0, _⟩ => by show (0 : Nat) = if (1 : Nat) = 1 then 0 else p.val; rw [if_pos rfl]
    | ⟨1, _⟩ => by show q.val = if (512 : Nat) = 1 then 0 else q.val; rw [if_neg (by decide)])

/-- THE TILE at (p, q): the product of the two blocks there, plus the bias of column `q`. -/
theorem tile_apply (a : Vec Ideal S1024x4096 .bf16) (s : Vec Ideal S4096x512 .bf16) (v : Vec Ideal S1x512 .f32)
    (p : Fin 1024) (q : Fin 512) :
    k0_pay1 (F := Ideal) a s v (ix2 p q) = (∑ k : Fin 4096, a (ix2 p k) * s (ix2 k q)) + v (ix2 (0 : Fin 1) q) := by
  unfold k0_pay1
  rw [addf_apply, shapeCast_self, shapeCast_self, shapeCast_self, product_apply, bias_apply]

end Cert.KernelIdeal.Tile

end
-- ==== Proof.Entry.lean ====
/-
  The three arrays the kernel's region reads, as functions of the program's arguments.

  Before the region the program prepares its operands on the host: the input converted to the narrow format, the
  signs of the weights taken and then converted, the bias viewed as a single row. Over the extended reals a change
  of format is the identity and the one-row view reads the vector's entry of the same column, so, entry by entry:
  the first operand IS the input, the second is the sign of the weight, the third at (0, n) is the bias at `n`.
-/
import proofs.«172454_j42167988912830_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The region's first operand is the input array. -/
theorem input_eq (c : Dev nD) :
    (V m c main_v2 : S8192x4096.Idx → EReal) = (m ((c : Thread nD τ).loc main_arg0) : S8192x4096.Idx → EReal) := by
  dsimp only [Gen.V, Gen.hostOps0]; after_results; rfl

/-- Its second operand is the weight array's signs. -/
theorem signs_eq (c : Dev nD) :
    (V m c main_v1 : S4096x4096.Idx → EReal)
      = fun i => Ideal.sign ((m ((c : Thread nD τ).loc main_arg1) : S4096x4096.Idx → EReal) i) := by
  dsimp only [Gen.V, Gen.hostOps0]; after_results; rfl

/-- Its third operand is the bias vector viewed as one row … -/
theorem bias_row_eq (c : Dev nD) :
    (V m c main_v3 : S1x4096.Idx → EReal)
      = shapeCast S1x4096 (m ((c : Thread nD τ).loc main_arg2) : S4096.Idx → EReal) shapeCasts_S4096_S1x4096 := by
  dsimp only [Gen.V, Gen.hostOps0]; after_results; rfl

/-- … which at (0, n) reads the bias at `n`. -/
theorem bias_row_apply (c : Dev nD) (z : Fin 1) (n : Fin 4096) :
    (V m c main_v3 : S1x4096.Idx → EReal) (ix2 z n) = (m ((c : Thread nD τ).loc main_arg2) : S4096.Idx → EReal) (ix1 n) := by
  rw [bias_row_eq]
  refine shapeCast_apply _ _ _ _ ?_
  show (S4096.rowMajor (ix1 n)).val = (S1x4096.rowMajor (ix2 z n)).val
  rw [Shape.rowMajor_val_one, Shape.rowMajor_val_two]
  show n.val = z.val * 4096 + n.val
  have := z.isLt
  omega

end Cert.KernelIdeal.Entry

end
-- ==== Proof.Blocks.lean ====
/-
  From the kernel's tiles to its whole output array.

  The grid has 8 × 8 points. At point (g, h) the kernel reads rows 1024·g … 1024·g + 1023 of the input (all features),
  columns 512·h … 512·h + 511 of the binarised weights (all features) and the same columns of the bias row, and writes
  the tile of the output with those rows and columns. Entry (p, q) of that tile is the tile's product plus bias
  (`Tile.tile_apply`); its operands are the region's arrays read through the blocks (`input_block`, `signs_block`,
  `bias_block`), which are the program's arguments (`Entry`); so the tile IS the same rows and columns of
  `Layer.dense` of the arguments (`tile_eq`). The 64 tiles cover the output — the point that writes entry (r, n) is
  (r / 1024, n / 512) — and therefore the array the run leaves is `Layer.dense` of the arguments (`result_eq`, `run`).
-/
import proofs.«172454_j42167988912830_2_alg».proof.Proof.Gen.KernelIdeal.Value
import proofs.«172454_j42167988912830_2_alg».proof.Proof.Layer
import proofs.«172454_j42167988912830_2_alg».proof.Proof.Tile
import proofs.«172454_j42167988912830_2_alg».proof.Proof.Entry
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer of the program's three arguments, on core `c`. -/
abbrev layer (c : Dev nD) : S8192x4096.Idx → EReal :=
  Cert.Layer.dense (m ((c : Thread nD τ).loc main_arg0)) (m ((c : Thread nD τ).loc main_arg1)) (m ((c : Thread nD τ).loc main_arg2))

theorem offsets_zero : (![0, 0] : Fin 2 → Nat) = fun _ => 0 := funext fun a => by fin_cases a <;> rfl

/-! ## Where the blocks sit -/

/-- Over the 64 grid points: the input's block has the output tile's row block and starts at feature 0; the
    weights' and the bias's blocks start at feature (row) 0 and have the output tile's column block; and the output's
    block indices are below 8 on both axes. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every pair of a row block and a column block is some grid point's. -/
theorem block_onto : ∀ (g h : Fin 8), ∃ t : Fin cfg0.N, win0_3.index t = ![g.val, h.val] :=
  (by decide +kernel : ∀ (g h : Fin 8), ∃ t : Fin grid0.N, win0_3.index t = ![g.val, h.val])

/-! ## The input blocks, read off the arguments -/

/-- Row `p`, feature `k` of the input's block at point `t` is the input at row `r` = 1024 · (row block) + p. -/
theorem input_block (c : Dev nD) (t : Fin cfg0.N) (p : Fin 1024) (k : Fin 4096) (r : Fin 8192)
    (hr : r.val = win0_0.index t (0 : Fin 2) * 1024 + p.val) (h0 : win0_0.index t (1 : Fin 2) = 0) :
    (iblk m c 0 t : Vec Ideal S1024x4096 .bf16) (ix2 p k)
      = (m ((c : Thread nD τ).loc main_arg0) : S8192x4096.Idx → EReal) (ix2 r k) := by
  unfold iblk
  rw [View.read_apply]
  refine (congrFun (Entry.input_eq m c) _).trans
    (congrArg (m ((c : Thread nD τ).loc main_arg0) : S8192x4096.Idx → EReal) ?_)
  funext a; apply Fin.ext
  match a with
  | ⟨0, _⟩ => show win0_0.index t (0 : Fin 2) * 1024 + 1 * p.val = r.val; omega
  | ⟨1, _⟩ => show win0_0.index t (1 : Fin 2) * 4096 + 1 * k.val = k.val; omega

/-- Feature `k`, column `q` of the weights' block at point `t` is the sign of the weight at column
    `n` = 512 · (column block) + q. -/
theorem signs_block (c : Dev nD) (t : Fin cfg0.N) (k : Fin 4096) (q : Fin 512) (n : Fin 4096)
    (hn : n.val = win0_1.index t (1 : Fin 2) * 512 + q.val) (h0 : win0_1.index t (0 : Fin 2) = 0) :
    (iblk m c 1 t : Vec Ideal S4096x512 .bf16) (ix2 k q)
      = Ideal.sign ((m ((c : Thread nD τ).loc main_arg1) : S4096x4096.Idx → EReal) (ix2 k n)) := by
  unfold iblk
  rw [View.read_apply]
  refine (congrFun (Entry.signs_eq m c) _).trans
    (congrArg (fun i => Ideal.sign ((m ((c : Thread nD τ).loc main_arg1) : S4096x4096.Idx → EReal) i)) ?_)
  funext a; apply Fin.ext
  match a with
  | ⟨0, _⟩ => show win0_1.index t (0 : Fin 2) * 4096 + 1 * k.val = k.val; omega
  | ⟨1, _⟩ => show win0_1.index t (1 : Fin 2) * 512 + 1 * q.val = n.val; omega

/-- Column `q` of the bias row's block at point `t` is the bias at `n` = 512 · (column block) + q. -/
theorem bias_block (c : Dev nD) (t : Fin cfg0.N) (z : Fin 1) (q : Fin 512) (n : Fin 4096)
    (hn : n.val = win0_2.index t (1 : Fin 2) * 512 + q.val) (h0 : win0_2.index t (0 : Fin 2) = 0) :
    (iblk m c 2 t : Vec Ideal S1x512 .f32) (ix2 z q)
      = (m ((c : Thread nD τ).loc main_arg2) : S4096.Idx → EReal) (ix1 n) := by
  unfold iblk
  rw [View.read_apply]
  have e : ((cfg0.win 2).blk t).view.emb (ix2 z q) = ix2 (0 : Fin 1) n := by
    funext a; apply Fin.ext
    match a with
    | ⟨0, _⟩ => show win0_2.index t (0 : Fin 2) * 1 + 1 * z.val = 0; have := z.isLt; omega
    | ⟨1, _⟩ => show win0_2.index t (1 : Fin 2) * 512 + 1 * q.val = n.val; omega
  exact (congrArg (V m c main_v3 : S1x4096.Idx → EReal) e).trans (Entry.bias_row_apply m c 0 n)

/-! ## What a point writes back -/

/-- WHAT POINT `t` WRITES BACK is its block of the layer of the arguments. -/
theorem tile_eq (c : Dev nD) (t : Fin cfg0.N) :
    (dats m 0 c).flushed 3 t = ((cfg0.win 3).blk t).view.read (Elt Ideal) (layer m c) := by
  rw [Value.flushed3]
  unfold out0_3
  rw [View.canon_unit_zero offsets_zero]
  simp only [View.ld_unit_zero (S := S1024x4096) offsets_zero, View.ld_unit_zero (S := S4096x512) offsets_zero,
    View.ld_unit_zero (S := S1x512) offsets_zero]
  obtain ⟨e0, e1, e2, e3, e4, e5, e6, e7⟩ := block_indices t
  funext j
  obtain ⟨p, q, rfl⟩ : ∃ (p : Fin 1024) (q : Fin 512), j = ix2 p q := ⟨j 0, j 1, eq_ix2 j⟩
  have hp := p.isLt
  have hq := q.isLt
  obtain ⟨r, hr⟩ : ∃ r : Fin 8192, r.val = win0_3.index t (0 : Fin 2) * 1024 + p.val := ⟨⟨_, by omega⟩, rfl⟩
  obtain ⟨n, hn⟩ : ∃ n : Fin 4096, n.val = win0_3.index t (1 : Fin 2) * 512 + q.val := ⟨⟨_, by omega⟩, rfl⟩
  have hemb : ((cfg0.win 3).blk t).view.emb (ix2 p q) = ix2 r n := by
    funext a; apply Fin.ext
    match a with
    | ⟨0, _⟩ => show win0_3.index t (0 : Fin 2) * 1024 + 1 * p.val = r.val; omega
    | ⟨1, _⟩ => show win0_3.index t (1 : Fin 2) * 512 + 1 * q.val = n.val; omega
  show k0_pay1 (iblk m c 0 t) (iblk m c 1 t) (iblk m c 2 t) (ix2 p q) = layer m c (((cfg0.win 3).blk t).view.emb (ix2 p q))
  refine (Tile.tile_apply (iblk m c 0 t) (iblk m c 1 t) (iblk m c 2 t) p q).trans ?_
  refine Eq.trans ?_ (congrArg (layer m c) hemb.symm)
  refine Eq.trans ?_ (Cert.Layer.dense_apply (m ((c : Thread nD τ).loc main_arg0)) (m ((c : Thread nD τ).loc main_arg1))
    (m ((c : Thread nD τ).loc main_arg2)) r n).symm
  refine congrArg₂ (· + ·) (Finset.sum_congr rfl fun k _ => ?_) ?_
  · rw [input_block m c t p k r (by omega) e1, signs_block m c t k q n (by omega) e2]
  · exact bias_block m c t 0 q n (by omega) e4

/-! ## The tiles cover the output -/

/-- An index of the output is in point `t`'s block iff each coordinate is in the block's range on its axis. -/
theorem mem_tile (t : Fin cfg0.N) (i : S8192x4096.Idx) :
    i ∈ ((cfg0.win 3).blk t).view.set
      ↔ ∀ a : Fin 2, win0_3.index t a * S1024x512.size a ≤ (i a).val ∧ (i a).val < win0_3.index t a * S1024x512.size a + S1024x512.size a := by
  show i ∈ ((View.whole main_v4).slice (win0_3.rect t)).set ↔ _
  rw [View.set_slice_whole, Rect.mem_set_unit]
  exact Iff.rfl

/-- Every index of the output is in the block of a point that writes back: the point of row block r / 1024 and
    column block n / 512. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-! ## The output array, and the run -/

/-- THE OUTPUT ARRAY after the run is the layer of the arguments. -/
theorem result_eq (c : Dev nD) : (dats m 0 c).arrAt 3 cfg0.N = layer m c :=
  (dats m 0 c).arrAt_eq_of_cover 3 (layer m c) (fun t _ => tile_eq m c t) covered

/-- Every weakly fair execution of the kernel's program terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v4) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩)
    (Cert.KernelIdeal.Value.run_blocks m ρ)

end Cert.KernelIdeal.Blocks

end
-- ==== Proof.lean ====
/-
  A dense layer with binarised weights: `x · sign w + b` for an 8192 × 4096 input `x`, a 4096 × 4096 weight matrix
  `w` and a bias `b` of 4096 entries.

  The kernel's program takes the signs of the weights on the host, converts them and the input to a narrow float
  format, and then computes the product tile by tile over an 8 × 8 grid: each tile multiplies 1024 rows of the input
  by 512 columns of signs, all 4096 features at once, into a zero accumulator, and adds the bias of its columns. The
  reference takes the signs, contracts the whole input with them and adds the bias broadcast along the rows.

  Over the extended reals a change of float format is the identity and the matrix unit's product into a zero
  accumulator is the plain sum of products, so both programs leave in the result, at row r and column n,

      ∑ k, x (r, k) · sign (w (k, n))  +  b n            (`Cert.Layer.dense`),

  term for term: the same sum in the same order, with the same sign function on both sides. No law of arithmetic is
  needed beyond reading the two programs at an index, and the finiteness of the inputs is never used.

  `Layer` states that function; `Reference` shows the reference computes it; `Tile` reads one tile of the kernel at
  an entry, `Entry` the host-prepared operands as functions of the arguments, and `Blocks` puts the 64 tiles together
  into the whole array. The three programs' termination and the preservation of their arguments are the imported
  run theorems; the idealised kernel is the kernel's own text read over the extended reals (no rewrite to justify).
-/
import proofs.«172454_j42167988912830_2_alg».proof.Defs
import proofs.«172454_j42167988912830_2_alg».proof.Proof.Gen.Kernel
import proofs.«172454_j42167988912830_2_alg».proof.Proof.Gen.Kernel.Skeleton
import proofs.«172454_j42167988912830_2_alg».proof.Proof.Gen.Kernel.Launch
import proofs.«172454_j42167988912830_2_alg».proof.Proof.Gen.Kernel.Points
import proofs.«172454_j42167988912830_2_alg».proof.Proof.Gen.Kernel.Frame
import proofs.«172454_j42167988912830_2_alg».proof.Proof.Gen.KernelIdeal
import proofs.«172454_j42167988912830_2_alg».proof.Proof.Gen.KernelIdeal.Skeleton
import proofs.«172454_j42167988912830_2_alg».proof.Proof.Gen.KernelIdeal.Launch
import proofs.«172454_j42167988912830_2_alg».proof.Proof.Gen.KernelIdeal.Points
import proofs.«172454_j42167988912830_2_alg».proof.Proof.Gen.KernelIdeal.Frame
import proofs.«172454_j42167988912830_2_alg».proof.Proof.Gen.ReferenceIdeal
import proofs.«172454_j42167988912830_2_alg».proof.Proof.Gen.Pre_finite_inputs
import proofs.«172454_j42167988912830_2_alg».proof.Proof.Gen.KernelIdeal.Value
import proofs.«172454_j42167988912830_2_alg».proof.Proof.Gen.ReferenceIdeal.Run
import proofs.«172454_j42167988912830_2_alg».proof.Proof.Gen.ReferenceIdeal.Read
import proofs.«172454_j42167988912830_2_alg».proof.Proof.Layer
import proofs.«172454_j42167988912830_2_alg».proof.Proof.Reference
import proofs.«172454_j42167988912830_2_alg».proof.Proof.Blocks
import Idealize.ShloMosaic.Adequacy
import Idealize.ShloMosaic.Init

noncomputable section

namespace Cert.Proof

open Idealize.ShloMosaic Idealize.ShloMosaic.TcCoe Idealize.SL.Sem

/-- The kernel's program, at the word level, runs and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at the layer of those
    arguments: the kernel's by its tiles (`Blocks.run`), the reference's by its operations read at an index
    (`Dense.result_eq`). -/
theorem algebraic : Cert.algebraic_KernelIdeal_ReferenceIdeal := by
  intro m ρ m' ρ' _ hagree
  refine ⟨fun c => Cert.KernelIdeal.Blocks.layer m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Dense.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
